-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S4x64x64 : Shape := ⟨3, ![4, 64, 64]⟩
abbrev S1x256x64x64 : Shape := ⟨4, ![1, 256, 64, 64]⟩
abbrev S1x64x64 : Shape := ⟨3, ![1, 64, 64]⟩
abbrev S4x4096 : Shape := ⟨2, ![4, 4096]⟩
abbrev S4x128 : Shape := ⟨2, ![4, 128]⟩
abbrev S4x128x1 : Shape := ⟨3, ![4, 128, 1]⟩
abbrev S4x1x4096 : Shape := ⟨3, ![4, 1, 4096]⟩
abbrev S4x128x4096 : Shape := ⟨3, ![4, 128, 4096]⟩
abbrev S_ : Shape := ⟨0, ![]⟩
abbrev S4 : Shape := ⟨1, ![4]⟩

abbrev nBuf : Space → Nat
  | .hbm => 26
  | .vmem => 19
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x64x64, .f32⟩
  | .hbm, ⟨3, _⟩ => ⟨S4x64x64, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S4x4096, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x256x64x64, .f32⟩
  | .local _ .vmem, ⟨1, _⟩ => ⟨S1x256x64x64, .f32⟩
  | .local _ .vmem, ⟨2, _⟩ => ⟨S1x256x64x64, .f32⟩
  | .local _ .vmem, ⟨3, _⟩ => ⟨S1x256x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | .local _ .vmem, ⟨8, _⟩ => ⟨S4x4096, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x4096, .f32⟩
  | .local _ .vmem, ⟨16, _⟩ => ⟨S4x4096, .f32⟩
  | .local _ .vmem, ⟨17, _⟩ => ⟨S4x128, .f32⟩
  | .local _ .vmem, ⟨18, _⟩ => ⟨S4x128, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1x256x64x64_S1x256x64x64_0_0_0_0 : ∀ a, (![0, 0, 0, 0] : Fin 4 → Nat) a + S1x256x64x64.size a ≤ S1x256x64x64.size a
  h_S1x256x64x64 : 0 < S1x256x64x64.numel
  reduces_S1x256x64x64_S1x64x64 : S1x256x64x64.Reduces [1] S1x64x64
  inb_S1x64x64_S1x64x64_0_0_0 : ∀ a, (![0, 0, 0] : Fin 3 → Nat) a + S1x64x64.size a ≤ S1x64x64.size a
  h_S1x64x64 : 0 < S1x64x64.numel
  shapeCasts_S4x64x64_S4x4096 : S4x64x64.ShapeCasts S4x4096
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S4x128_S4x128_0_0 : ∀ a, (![0, 0] : Fin 2 → Nat) a + S4x128.size a ≤ S4x128.size a
  h_S4x128 : 0 < S4x128.numel
  shapeCasts_S4x128_S4x128 : S4x128.ShapeCasts S4x128
  shapeCasts_S4x128_S4x128x1 : S4x128.ShapeCasts S4x128x1
  shapeCasts_S4x4096_S4x1x4096 : S4x4096.ShapeCasts S4x1x4096
  broadcasts_S4x128x1_S4x128x4096 : S4x128x1.Broadcasts S4x128x4096
  broadcasts_S4x1x4096_S4x128x4096 : S4x1x4096.Broadcasts S4x128x4096
  reduces_S4x128x4096_S4x128 : S4x128x4096.Reduces [2] S4x128
  bcast_S_S4x4096 : S_.BroadcastsInDim S4x4096 (![] : Fin 0 → Fin S4x4096.rank)
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S4x256x64x64.size a
  hwx0_0 : ∀ i : grid0.Coords, EltTy.bits .f32 = 32 ∨ (Rect.block (s := S4x256x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64x64.size a ≤ S4x256x64x64.size a
  hwx0_1 : ∀ i : grid0.Coords, EltTy.bits .f32 = 32 ∨ (Rect.block (s := S4x256x64x64) S1x256x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S4x64x64.size a
  hwx0_2 : ∀ i : grid0.Coords, EltTy.bits .f32 = 32 ∨ (Rect.block (s := S4x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S4x64x64.size a
  hwx0_3 : ∀ i : grid0.Coords, EltTy.bits .f32 = 32 ∨ (Rect.block (s := S4x64x64) S1x64x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x4096.size a ≤ S4x4096.size a
  hwx1_0 : ∀ i : grid1.Coords, EltTy.bits .f32 = 32 ∨ (Rect.block (s := S4x4096) S4x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x128.size a ≤ S4x4096.size a
  hwx1_1 : ∀ i : grid1.Coords, EltTy.bits .f32 = 32 ∨ (Rect.block (s := S4x4096) S4x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x4096.size a
  hwx1_2 : ∀ i : grid1.Coords, EltTy.bits .f32 = 32 ∨ (Rect.block (s := S4x4096) S4x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x128.size a ≤ S4x4096.size a
  hwx2_0 : ∀ i : grid2.Coords, EltTy.bits .f32 = 32 ∨ (Rect.block (s := S4x4096) S4x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4096.size a ≤ S4x4096.size a
  hwx2_1 : ∀ i : grid2.Coords, EltTy.bits .f32 = 32 ∨ (Rect.block (s := S4x4096) S4x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x4096.size a ≤ S4x4096.size a
  hwx2_2 : ∀ i : grid2.Coords, EltTy.bits .f32 = 32 ∨ (Rect.block (s := S4x4096) S4x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x128.size a ≤ S4x4096.size a
  hwx2_3 : ∀ i : grid2.Coords, EltTy.bits .f32 = 32 ∨ (Rect.block (s := S4x4096) S4x128.size (cc2_transform_3 i) (hinb2_3 i)).WholeWords (EltTy.packing .f32)

variable [Facts₀]

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S4x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S4x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S4x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S4x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x256x64x64 : Shape := ⟨4, ![4, 256, 64, 64]⟩
abbrev S4x64x64x256 : Shape := ⟨4, ![4, 64, 64, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x64x64x4096 : Shape := ⟨4, ![4, 64, 64, 4096]⟩
abbrev S4x64x64 : Shape := ⟨3, ![4, 64, 64]⟩
abbrev S4x64x64x1 : Shape := ⟨4, ![4, 64, 64, 1]⟩
abbrev S4 : Shape := ⟨1, ![4]⟩

abbrev nBuf : Space → Nat
  | .hbm => 49
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x64x64x256, .f32⟩
  | .hbm, ⟨3, _⟩ => ⟨S4x64x64x256, .f32⟩
  | .hbm, ⟨4, _⟩ => ⟨S4x4096x256, .f32⟩
  | .hbm, ⟨5, _⟩ => ⟨S4x4096x256, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x64x64x4096, .f32⟩
  | .hbm, ⟨18, _⟩ => ⟨S_, .f32⟩
  | .hbm, ⟨19, _⟩ => ⟨S4x64x64x4096, .f32⟩
  | .hbm, ⟨20, _⟩ => ⟨S4x64x64x4096, .f32⟩
  | .hbm, ⟨21, _⟩ => ⟨S_, .f32⟩
  | .hbm, ⟨22, _⟩ => ⟨S4x64x64, .f32⟩
  | .hbm, ⟨23, _⟩ => ⟨S4x64x64x1, .f32⟩
  | .hbm, ⟨24, _⟩ => ⟨S_, .f32⟩
  | .hbm, ⟨25, _⟩ => ⟨S4x64x64x1, .f32⟩
  | .hbm, ⟨26, _⟩ => ⟨S4x64x64x1, .f32⟩
  | .hbm, ⟨27, _⟩ => ⟨S4x64x64x4096, .f32⟩
  | .hbm, ⟨28, _⟩ => ⟨S4x64x64x4096, .f32⟩
  | .hbm, ⟨29, _⟩ => ⟨S_, .f32⟩
  | .hbm, ⟨30, _⟩ => ⟨S4x64x64x4096, .f32⟩
  | .hbm, ⟨31, _⟩ => ⟨S4x64x64x4096, .f32⟩
  | .hbm, ⟨32, _⟩ => ⟨S_, .f32⟩
  | .hbm, ⟨33, _⟩ => ⟨S4x64x64x4096, .f32⟩
  | .hbm, ⟨34, _⟩ => ⟨S4x64x64x4096, .f32⟩
  | .hbm, ⟨35, _⟩ => ⟨S4x64x64x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  transposes_S4x256x64x64_S4x64x64x256_0_2_3_1 : S4x256x64x64.Transposes [0, 2, 3, 1] S4x64x64x256
  shapeCasts_S4x64x64x256_S4x4096x256 : S4x64x64x256.ShapeCasts S4x4096x256
  reducesTo_S4x4096x256_S4x4096_d2 : S4x4096x256.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  transposes_S4x4096x4096_S4x4096x4096_0_2_1 : S4x4096x4096.Transposes [0, 2, 1] S4x4096x4096
  shapeCasts_S4x4096x4096_S4x64x64x4096 : S4x4096x4096.ShapeCasts S4x64x64x4096
  bcast_S_S4x64x64x4096 : S_.BroadcastsInDim S4x64x64x4096 (![] : Fin 0 → Fin S4x64x64x4096.rank)
  reducesTo_S4x64x64x4096_S4x64x64_d3 : S4x64x64x4096.ReducesTo [3] S4x64x64
  bcast_S4x64x64_S4x64x64x1_0_1_2 : S4x64x64.BroadcastsInDim S4x64x64x1 (![0, 1, 2] : Fin 3 → Fin S4x64x64x1.rank)
  bcast_S_S4x64x64x1 : S_.BroadcastsInDim S4x64x64x1 (![] : Fin 0 → Fin S4x64x64x1.rank)
  bcast_S4x64x64x1_S4x64x64x4096_0_1_2_3 : S4x64x64x1.BroadcastsInDim S4x64x64x4096 (![0, 1, 2, 3] : Fin 4 → Fin S4x64x64x4096.rank)
  reducesTo_S4x64x64x4096_S4x4096_d1_2 : S4x64x64x4096.ReducesTo [1, 2] S4x4096
  reducesTo_S4x4096_S4_d1 : S4x4096.ReducesTo [1] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.Run.lean ====
/-
  The kernel program's run with its result named: every weakly fair execution of the three launches and the host
  operations around them terminates, and the result buffer ends at the contents the last boundary of the run assigns
  it (the fold of the segments' effects over the launch memory), the arguments unchanged.
-/
import proofs.«107951_j36189394436760_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run over the five segments, read at the result buffer as well as at the two arguments: the last thread state
    holds every unscoped buffer at the last boundary's contents, and the final state is read against it. -/
theorem run_named : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c),
       (h c _ (mem_uc main_arg1 (by decide))).trans (W5_main_arg1 m ρ c)⟩)

end Cert.KernelIdeal.Hand

end
-- ==== Proof.ChanSum.lean ====
/-
  The first launch: one grid point per image, summing the 256 channels of both feature arrays.

  Block `t` of each input is image `t` whole; the body stores, at pixel (h, w), the sum over the channel axis.  So after
  the launch each of the two [4, 64, 64] results holds, at (n, h, w), the sum over c of the argument at (n, c, h, w).
-/
import proofs.«107951_j36189394436760_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.ChanSum

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index (n, c, h, w) of a feature array from a pixel index (n, h, w) and a channel. -/
def atChan (i : S4x64x64.Idx) (k : Fin 256) : S4x256x64x64.Idx := fun d => match d with
  | ⟨0, _⟩ => ⟨(i 0).val, (i 0).isLt⟩
  | ⟨1, _⟩ => k
  | ⟨2, _⟩ => ⟨(i 1).val, (i 1).isLt⟩
  | ⟨3, _⟩ => ⟨(i 2).val, (i 2).isLt⟩

/-- The channel sum of a feature array at pixel (n, h, w). -/
def chanSum (a : S4x256x64x64.Idx → EReal) : S4x64x64.Idx → EReal := fun i => ∑ k : Fin 256, a (atChan i k)

/-- The body's stored value at a pixel of the block: the sum over the block's channels. -/
theorem pay_apply (x : Vec Ideal S1x256x64x64 .f32) (j : S1x64x64.Idx) :
    k0_pay1 x j = ∑ k : Fin 256, x (reduces_S1x256x64x64_S1x64x64.lift j k) := by
  unfold k0_pay1
  exact Ideal.multiReduction_add_single x _ reduces_S1x256x64x64_S1x64x64 (.inl rfl) rfl j

theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem flushed2_eq (c : Dev nD) (t : Fin cfg0.N) :
    (dat0 V c).flushed 2 t = ((cfg0.win 2).blk t).view.read (Elt Ideal) (chanSum (V c main_arg0)) := by
  show (cfg0.win 2).cut (grid0.coords t) ((dat0 V c).after 2 t) = _
  rw [after0_2]
  unfold out0_2
  rw [View.canon_unit_zero hz3]
  simp only [View.ld_unit_zero (S := S1x256x64x64) hz4]
  funext j
  show k0_pay1 (iblk0 V c 0 t) j = chanSum (V c main_arg0) (((cfg0.win 2).blk t).view.emb j)
  refine (pay_apply _ _).trans ?_
  unfold chanSum
  refine Finset.sum_congr rfl fun k _ => ?_
  obtain ⟨e0, e1, e2, e3, -, -, -, -, f0, f1, f2, -, -, -⟩ := idx_facts t
  show V c main_arg0 (((cfg0.win 0).blk t).view.emb (reduces_S1x256x64x64_S1x64x64.lift j k)) = V c main_arg0 (atChan (((cfg0.win 2).blk t).view.emb j) k)
  congr 1
  funext a
  apply Fin.ext
  match a with
  | ⟨0, _⟩ => show win0_0.index t (0 : Fin 4) * 1 + 1 * (j 0).val = win0_2.index t (0 : Fin 3) * 1 + 1 * (j 0).val; omega
  | ⟨1, _⟩ => show win0_0.index t (1 : Fin 4) * 256 + 1 * k.val = k.val; omega
  | ⟨2, _⟩ => show win0_0.index t (2 : Fin 4) * 64 + 1 * (j 1).val = win0_2.index t (1 : Fin 3) * 64 + 1 * (j 1).val; omega
  | ⟨3, _⟩ => show win0_0.index t (3 : Fin 4) * 64 + 1 * (j 2).val = win0_2.index t (2 : Fin 3) * 64 + 1 * (j 2).val; omega

theorem pay2_apply (x : Vec Ideal S1x256x64x64 .f32) (j : S1x64x64.Idx) :
    k0_pay2 x j = ∑ k : Fin 256, x (reduces_S1x256x64x64_S1x64x64.lift j k) := by
  unfold k0_pay2
  exact Ideal.multiReduction_add_single x _ reduces_S1x256x64x64_S1x64x64 (.inl rfl) rfl j

theorem flushed3_eq (c : Dev nD) (t : Fin cfg0.N) :
    (dat0 V c).flushed 3 t = ((cfg0.win 3).blk t).view.read (Elt Ideal) (chanSum (V c main_arg1)) := by
  show (cfg0.win 3).cut (grid0.coords t) ((dat0 V c).after 3 t) = _
  rw [after0_3]
  unfold out0_3
  rw [View.canon_unit_zero hz3]
  simp only [View.ld_unit_zero (S := S1x256x64x64) hz4]
  funext j
  show k0_pay2 (iblk0 V c 1 t) j = chanSum (V c main_arg1) (((cfg0.win 3).blk t).view.emb j)
  refine (pay2_apply _ _).trans ?_
  unfold chanSum
  refine Finset.sum_congr rfl fun k _ => ?_
  obtain ⟨-, -, -, -, e0, e1, e2, e3, -, -, -, f0, f1, f2⟩ := idx_facts t
  show V c main_arg1 (((cfg0.win 1).blk t).view.emb (reduces_S1x256x64x64_S1x64x64.lift j k)) = V c main_arg1 (atChan (((cfg0.win 3).blk t).view.emb j) k)
  congr 1
  funext a
  apply Fin.ext
  match a with
  | ⟨0, _⟩ => show win0_1.index t (0 : Fin 4) * 1 + 1 * (j 0).val = win0_3.index t (0 : Fin 3) * 1 + 1 * (j 0).val; omega
  | ⟨1, _⟩ => show win0_1.index t (1 : Fin 4) * 256 + 1 * k.val = k.val; omega
  | ⟨2, _⟩ => show win0_1.index t (2 : Fin 4) * 64 + 1 * (j 1).val = win0_3.index t (1 : Fin 3) * 64 + 1 * (j 1).val; omega
  | ⟨3, _⟩ => show win0_1.index t (3 : Fin 4) * 64 + 1 * (j 2).val = win0_3.index t (2 : Fin 3) * 64 + 1 * (j 2).val; omega

/-- Image `n`'s pixels are written back by grid point `n`. -/
theorem cover2 (i : S4x64x64.Idx) :
    ∃ t : Fin cfg0.N, (cfg0.win 2).flush t = true ∧ i ∈ ((cfg0.win 2).blk t).view.set := by
  have h0 : (i 0).val < 4 := (i 0).isLt
  have h1 : (i 1).val < 64 := (i 1).isLt
  have h2 : (i 2).val < 64 := (i 2).isLt
  have hN : (i 0).val < cfg0.N := by rw [show cfg0.N = 4 from N_0]; exact h0
  refine ⟨⟨(i 0).val, hN⟩, flush0_2 _, ?_⟩
  obtain ⟨-, -, -, -, -, -, -, -, f0, f1, f2, -, -, -⟩ := idx_facts ⟨(i 0).val, hN⟩
  replace f0 : win0_2.index ⟨(i 0).val, hN⟩ (0 : Fin 3) = (i 0).val := f0
  show i ∈ ((View.whole main_v0_0).slice (win0_2.rect ⟨(i 0).val, hN⟩)).set
  rw [View.set_slice_whole, Rect.mem_set_unit]
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; rw [f0]; omega
  | ⟨1, _⟩ => show win0_2.index ⟨(i 0).val, hN⟩ (1 : Fin 3) * 64 ≤ (i 1).val ∧ (i 1).val < win0_2.index ⟨(i 0).val, hN⟩ (1 : Fin 3) * 64 + 64; rw [f1]; omega
  | ⟨2, _⟩ => show win0_2.index ⟨(i 0).val, hN⟩ (2 : Fin 3) * 64 ≤ (i 2).val ∧ (i 2).val < win0_2.index ⟨(i 0).val, hN⟩ (2 : Fin 3) * 64 + 64; rw [f2]; omega

theorem cover3 (i : S4x64x64.Idx) :
    ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 64 := (i 2).isLt
  have hN : (i 0).val < cfg0.N := by rw [show cfg0.N = 4 from N_0]; exact h0
  refine ⟨⟨(i 0).val, hN⟩, flush0_3 _, ?_⟩
  obtain ⟨-, -, -, -, -, -, -, -, -, -, -, f0, f1, f2⟩ := idx_facts ⟨(i 0).val, hN⟩
  replace f0 : win0_3.index ⟨(i 0).val, hN⟩ (0 : Fin 3) = (i 0).val := f0
  show i ∈ ((View.whole main_v0_1).slice (win0_3.rect ⟨(i 0).val, hN⟩)).set
  rw [View.set_slice_whole, Rect.mem_set_unit]
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; rw [f0]; omega
  | ⟨1, _⟩ => show win0_3.index ⟨(i 0).val, hN⟩ (1 : Fin 3) * 64 ≤ (i 1).val ∧ (i 1).val < win0_3.index ⟨(i 0).val, hN⟩ (1 : Fin 3) * 64 + 64; rw [f1]; omega
  | ⟨2, _⟩ => show win0_3.index ⟨(i 0).val, hN⟩ (2 : Fin 3) * 64 ≤ (i 2).val ∧ (i 2).val < win0_3.index ⟨(i 0).val, hN⟩ (2 : Fin 3) * 64 + 64; rw [f2]; omega

/-- After the launch the first result is the channel sum of the first argument as the launch found it, -/
theorem final2 (c : Dev nD) : (dat0 V c).arrAt 2 cfg0.N = chanSum (V c main_arg0) :=
  (dat0 V c).arrAt_eq_of_cover 2 (chanSum (V c main_arg0)) (fun t _ => flushed2_eq V c t) cover2

/-- and the second result the channel sum of the second. -/
theorem final3 (c : Dev nD) : (dat0 V c).arrAt 3 cfg0.N = chanSum (V c main_arg1) :=
  (dat0 V c).arrAt_eq_of_cover 3 (chanSum (V c main_arg1)) (fun t _ => flushed3_eq V c t) cover3

end Cert.KernelIdeal.ChanSum

end
-- ==== Proof.LibPairwise.lean ====
/-
  Reading a pairwise ("outer") arrangement of two rank-2 arrays at an index given by coordinates.

  To compare every column entry of row `p` of one array with every column entry of row `p` of another, a kernel
  casts an `[a, b]` array to `[a, b, 1]` and an `[a, c]` array to `[a, 1, c]` and broadcasts both to `[a, b, c]`.
  Read at `(p, q, r)` the first is the `[a, b]` array at `(p, q)` and the second the `[a, c]` array at `(p, r)`.
  A reduction along the last axis of the `[a, b, c]` arrangement runs, at `(p, q)`, over the indices `(p, q, r)`.
-/
import Idealize.ShloMosaic.Lib.ValueLayout
import Idealize.ShloMosaic.Lib.Pipeline.Value
import Idealize.ShloMosaic.Lib.ValueIdx
import Idealize.ShloMosaic.PureOps.Reduce

namespace Idealize.ShloMosaic.Pairwise

open Idealize.ShloMosaic Idealize.ShloMosaic.ValueIdx

variable {α : Type}

/-- An `[a, b]` array cast to `[a, b, 1]` reads, at `(p, q, u)`, the array at `(p, q)`. -/
theorem castCol_apply {a b : ℕ} (x : (⟨2, ![a, b]⟩ : Shape).Idx → α)
    (h : (⟨2, ![a, b]⟩ : Shape).ShapeCasts ⟨3, ![a, b, 1]⟩) (p : Fin a) (q : Fin b) :
    shapeCast ⟨3, ![a, b, 1]⟩ x h (ix3 p q (0 : Fin 1)) = x (ix2 p q) :=
  shapeCast_apply x h _ _ (by
    rw [Shape.rowMajor_val_two, Shape.rowMajor_val_three]
    show p.val * b + q.val = (p.val * b + q.val) * 1 + 0
    rw [Nat.mul_one, Nat.add_zero])

/-- An `[a, c]` array cast to `[a, 1, c]` reads, at `(p, u, r)`, the array at `(p, r)`. -/
theorem castRow_apply {a c : ℕ} (x : (⟨2, ![a, c]⟩ : Shape).Idx → α)
    (h : (⟨2, ![a, c]⟩ : Shape).ShapeCasts ⟨3, ![a, 1, c]⟩) (p : Fin a) (r : Fin c) :
    shapeCast ⟨3, ![a, 1, c]⟩ x h (ix3 p (0 : Fin 1) r) = x (ix2 p r) :=
  shapeCast_apply x h _ _ (by
    rw [Shape.rowMajor_val_two, Shape.rowMajor_val_three]
    show p.val * c + r.val = (p.val * 1 + 0) * c + r.val
    rw [Nat.mul_one, Nat.add_zero])

/-- An `[a, b, 1]` array broadcast to `[a, b, c]` reads, at `(p, q, r)`, its entry `(p, q, 0)`. -/
theorem broadcastCol_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, r)`, its entry `(p, 0, r)`. -/
theorem broadcastRow_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- The indices of `[a, b, c]` that a reduction along the last axis runs over at `(p, q)` are `(p, q, r)`. -/
theorem lift_last {a b c : ℕ} (h : (⟨3, ![a, b, c]⟩ : Shape).Reduces [2] ⟨2, ![a, b]⟩) (p : Fin a) (q : Fin b) (r : Fin c) :
    h.lift (ix2 p q) r = ix3 p q r := by
  funext d
  apply Fin.ext
  match d with
  | ⟨0, _⟩ => rfl
  | ⟨1, _⟩ => rfl
  | ⟨2, _⟩ => rfl

end Idealize.ShloMosaic.Pairwise
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Order.lean ====
/-
  Order facts on the extended reals behind the relative-distance score.

  The kernel takes, for each source patch, the MINIMUM over target patches of a relative distance and applies the
  decreasing map  x ↦ exp ((1 - x) / 1)  once; the reference applies that map to every relative distance and takes the
  MAXIMUM.  A decreasing map of a linear order carries the infimum of a finite nonempty family to the supremum of the
  images, so the two agree.  Also here: |a - b| = |b - a| on the extended reals (no finiteness needed: both sides are
  ⊤ as soon as one of a, b is infinite), and max |y| 0 = |y|.
-/
import Idealize.ShloMosaic.PureOps.Ideal
import Idealize.ShloMosaic.PureOps.Ideal.Laws

noncomputable section

namespace Cert.RelDist

open Idealize.ShloMosaic

/-- The f32 word of `1.0` denotes `1`. -/
theorem ofBits_one_f32 : Ideal.ofBits .f32 0x3F800000#32 = 1 := by
  simp [Ideal.ofBits, Ideal.ieee, -EReal.coe_mul]; norm_num

/-- The f32 word of `-∞` denotes `⊥`. -/
theorem ofBits_neg_inf_f32 : Ideal.ofBits .f32 0xFF800000#32 = ⊥ := by
  simp [Ideal.ofBits, Ideal.ieee]

/-- The f32 word of `+∞` denotes `⊤`. -/
theorem ofBits_pos_inf_f32 : Ideal.ofBits .f32 0x7F800000#32 = ⊤ := by
  simp [Ideal.ofBits, Ideal.ieee]

/-- The exponential of the extended reals (0 at -∞, +∞ at +∞) is monotone. -/
theorem exp_mono : Monotone Ideal.exp := by
  intro x y h
  induction x using EReal.rec with
  | bot =>
    induction y using EReal.rec with
    | bot => exact le_rfl
    | coe s => simp only [Ideal.exp_bot, Ideal.exp_coe]; exact_mod_cast (Real.exp_pos s).le
    | top => simp
  | coe r =>
    induction y using EReal.rec with
    | bot => exact absurd h (by simp)
    | coe s =>
      simp only [Ideal.exp_coe]
      exact_mod_cast Real.exp_le_exp.mpr (by exact_mod_cast h)
    | top => simp
  | top =>
    have hy : y = ⊤ := top_le_iff.mp h
    subst hy; exact le_rfl

/-- Dividing by one changes nothing. -/
theorem div_one (x : EReal) : Ideal.div x 1 = x := by
  have h := Ideal.div_coe (y := (1 : ℝ)) one_ne_zero x
  rw [EReal.coe_one] at h
  rw [h]; norm_num

/-- The score of a relative distance: `exp ((1 - x) / 1)`, with `1` spelt as its f32 word. -/
def score (x : EReal) : EReal :=
  Ideal.exp (Ideal.div (Ideal.ofBits .f32 0x3F800000#32 - x) (Ideal.ofBits .f32 0x3F800000#32))

theorem score_eq (x : EReal) : score x = Ideal.exp (1 - x) := by
  unfold score; rw [ofBits_one_f32, div_one]

/-- The score decreases as the relative distance grows. -/
theorem score_antitone : Antitone score := by
  intro x y h
  rw [score_eq, score_eq]
  exact exp_mono (EReal.sub_le_sub le_rfl h)

/-- The absolute difference, as the float operations spell it: `max (a - b) (-(a - b))`. -/
def dist (a b : EReal) : EReal := max (a - b) (-(a - b))

/-- `|a - b| = |b - a|` on the extended reals. -/
theorem dist_comm (a b : EReal) : dist a b = dist b a := by
  unfold dist
  induction a using EReal.rec <;> induction b using EReal.rec <;>
    first
    | rfl
    | (simp; done)
    | skip
  all_goals
    rename_i a b
    rw [← EReal.coe_sub, ← EReal.coe_sub, ← EReal.coe_neg, ← EReal.coe_neg, neg_sub, neg_sub, max_comm]

/-- An absolute value is not below zero, so clamping it at zero changes nothing. -/
theorem max_dist_zero (a b : EReal) : max (dist a b) 0 = dist a b := by
  unfold dist
  apply max_eq_left
  rcases le_total 0 (a - b) with h | h
  · exact le_max_of_le_left h
  · exact le_max_of_le_right (by simpa using EReal.neg_le_neg_iff.mpr h)

/-- Folding `min` from the top is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- Folding `max` from the bottom is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- A decreasing map carries the infimum of a finite nonempty family to the supremum of the images. -/
theorem antitone_inf_eq_sup {ι : Type} (g : EReal → EReal) (hg : Antitone g) (s : Finset ι) (hs : s.Nonempty)
    (f : ι → EReal) : g (s.inf f) = s.sup (fun i => g (f i)) := by
  apply le_antisymm
  · obtain ⟨i, hi, e⟩ := Finset.exists_mem_eq_inf s hs f
    rw [e]
    exact Finset.le_sup (f := fun i => g (f i)) hi
  · exact Finset.sup_le fun i hi => hg (Finset.inf_le hi)

/-! ## The two spellings of the per-patch score, over the per-patch channel sums

`sT n k` and `sI n i` are the channel sums of target patch `k` and source patch `i` of image `n`. -/

section Score

variable (sT sI : Fin 4 → Fin 4096 → EReal)

/-- The slack added to a target patch's nearest distance: the f32 word of `1e-5`, whatever real it denotes. -/
def slack : EReal := Ideal.ofBits .f32 0x3727C5AC#32

/-- Kernel side: the distance from target patch `k` to its nearest source patch. -/
def nearK (n : Fin 4) (k : Fin 4096) : EReal :=
  (Finset.univ : Finset (Fin 4096)).fold min ⊤ (fun k' => dist (sT n k) (sI n k'))

/-- Kernel side: the least relative distance from source patch `i` to a target patch. -/
def minRel (n : Fin 4) (i : Fin 4096) : EReal :=
  (Finset.univ : Finset (Fin 4096)).fold min ⊤ (fun k => Ideal.div (dist (sI n i) (sT n k)) (nearK sT sI n k + slack))

/-- Kernel side: one score per source patch, of the least relative distance. -/
def scoreK (n : Fin 4) (i : Fin 4096) : EReal := score (minRel sT sI n i)

/-- Reference side: the clamped distance between source patch `i` and target patch `k`. -/
def rawR (n : Fin 4) (k i : Fin 4096) : EReal := max (dist (sI n i) (sT n k)) 0

/-- Reference side: the distance from target patch `k` to its nearest source patch. -/
def nearR (n : Fin 4) (k : Fin 4096) : EReal :=
  (Finset.univ : Finset (Fin 4096)).fold min ⊤ (fun i => rawR sT sI n k i)

/-- Reference side: the greatest score of source patch `i` against a target patch. -/
def scoreR (n : Fin 4) (i : Fin 4096) : EReal :=
  (Finset.univ : Finset (Fin 4096)).fold max ⊥ (fun k => score (Ideal.div (rawR sT sI n k i) (nearR sT sI n k + slack)))

theorem rawR_eq (n : Fin 4) (k i : Fin 4096) : rawR sT sI n k i = dist (sI n i) (sT n k) := max_dist_zero _ _

theorem nearR_eq (n : Fin 4) (k : Fin 4096) : nearR sT sI n k = nearK sT sI n k := by
  unfold nearR nearK
  refine congrArg (fun f => (Finset.univ : Finset (Fin 4096)).fold min ⊤ f) (funext fun i => ?_)
  rw [rawR_eq, dist_comm]

/-- The score of the least relative distance is the greatest score: the score decreases. -/
theorem scoreK_eq_scoreR (n : Fin 4) (i : Fin 4096) : scoreK sT sI n i = scoreR sT sI n i := by
  unfold scoreK scoreR minRel
  rw [fold_min_top, fold_max_bot, antitone_inf_eq_sup score score_antitone _ Finset.univ_nonempty]
  refine congrArg (fun f => (Finset.univ : Finset (Fin 4096)).sup f) (funext fun k => ?_)
  rw [rawR_eq, nearR_eq]

end Score

end Cert.RelDist

end
-- ==== Proof.Near.lean ====
/-
  The second launch: for every target patch, the distance to its nearest source patch.

  One grid point per tile of 128 target patches; the per-patch channel sums of the source image are resident whole.
  At (n, q) of the tile the body stores the minimum over all 4096 source patches k of |sumT[n, q] - sumI[n, k]|.
  So after the launch the [4, 4096] result holds, at (n, j), the minimum over k of |sumT[n, j] - sumI[n, k]|.
-/
import proofs.«107951_j36189394436760_1_alg».proof.Proof.Gen.KernelIdeal.Frame
import Idealize.ShloMosaic.Lib.Pipeline.Value
import Idealize.ShloMosaic.Lib.ValueIdx
import Idealize.ShloMosaic.PureOps.Ideal.Laws
import proofs.«107951_j36189394436760_1_alg».proof.Proof.LibPairwise
import proofs.«107951_j36189394436760_1_alg».proof.Proof.LibColumns
import proofs.«107951_j36189394436760_1_alg».proof.Proof.Order

noncomputable section

open Idealize.ShloMosaic Idealize.ShloMosaic.TcCoe Idealize.SL.Sem
open Idealize.ShloMosaic.Pipeline (Dat)

namespace Cert.KernelIdeal.Near

open Cert.KernelIdeal Cert.KernelIdeal.Gen Idealize.ShloMosaic.ValueIdx Idealize.ShloMosaic.Pairwise Cert.RelDist

variable (V : (c : Dev nD) → (b : Ref sig .tc) → Buf (Elt Ideal) ((c : Thread nD τ).loc b))

theorem hz2 : (![0, 0] : Fin 2 → Nat) = fun _ => 0 := funext fun a => by fin_cases a <;> rfl

/-- The image coordinate of an index of a [4, 4096] array, as a number below 4. -/
abbrev img (i : S4x4096.Idx) : Fin 4 := ⟨(i 0).val, (i 0).isLt⟩

/-- From the source sums `aI` and the target sums `aT`: at (n, j) the least |aT[n, j] - aI[n, k]| over k. -/
def near (aI aT : S4x4096.Idx → EReal) : S4x4096.Idx → EReal :=
  fun i => (Finset.univ : Finset (Fin 4096)).fold min ⊤ (fun k => dist (aT i) (aI (ix2 (img i) k)))

/-- The body's stored value at (n, q) of the tile. -/
theorem pay_apply (x0 : Vec Ideal S4x4096 .f32) (x1 : Vec Ideal S4x128 .f32) (n : Fin 4) (q : Fin 128) :
    k1_pay1 x0 x1 (ix2 n q)
      = (Finset.univ : Finset (Fin 4096)).fold min ⊤ (fun k => dist (x1 (ix2 n q)) (x0 (ix2 n k))) := by
  unfold k1_pay1
  refine (multiReduction_minimumf_single _ _ reduces_S4x128x4096_S4x128 (.inl rfl) rfl (ix2 n q)).trans ?_
  have hacc : Ideal.ofBits .f32 (FKind.minimumf.neutral .f32 (.inl rfl)) = ⊤ := ofBits_pos_inf_f32
  rw [Ideal.ofBits_def, hacc]
  have key : ∀ k : Fin 4096,
      dist (broadcastTo S4x128x4096 (shapeCast S4x128x1 (shapeCast S4x128 x1 shapeCasts_S4x128_S4x128) shapeCasts_S4x128_S4x128x1) broadcasts_S4x128x1_S4x128x4096 (reduces_S4x128x4096_S4x128.lift (ix2 n q) k))
        (broadcastTo S4x128x4096 (shapeCast S4x1x4096 (shapeCast S4x4096 x0 shapeCasts_S4x4096_S4x4096) shapeCasts_S4x4096_S4x1x4096) broadcasts_S4x1x4096_S4x128x4096 (reduces_S4x128x4096_S4x128.lift (ix2 n q) k))
      = dist (x1 (ix2 n q)) (x0 (ix2 n k)) := by
    intro k
    rw [lift_last _ n q k, shapeCast_self, shapeCast_self, broadcastCol_apply, broadcastRow_apply, castCol_apply, castRow_apply]
  exact congrArg (fun f => (Finset.univ : Finset (Fin 4096)).fold min ⊤ f) (funext key)

/-- The stored value against whole arrays: the tile entry `j` sits at array index `i`, the resident block is the
    array `aI`, and the tile of target sums reads the array `aT` at the same offset. -/
theorem pay_eq_near (x0 : Vec Ideal S4x4096 .f32) (x1 : Vec Ideal S4x128 .f32) (aI aT : S4x4096.Idx → EReal)
    (j : S4x128.Idx) (i : S4x4096.Idx) (hi0 : (i 0).val = (j 0).val)
    (h0 : ∀ y : S4x4096.Idx, x0 y = aI y) (h1 : x1 j = aT i) :
    k1_pay1 x0 x1 j = near aI aT i := by
  obtain ⟨n, q, rfl⟩ : ∃ (n : Fin 4) (q : Fin 128), j = ix2 n q := ⟨j 0, j 1, eq_ix2 j⟩
  rw [pay_apply]
  unfold near
  refine congrArg (fun f => (Finset.univ : Finset (Fin 4096)).fold min ⊤ f) (funext fun k => ?_)
  have hn : img i = n := Fin.ext hi0
  rw [h0, h1, hn]

theorem idx_facts : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

theorem flushed_eq (c : Dev nD) (t : Fin cfg1.N) :
    (dat1 V c).flushed 2 t = ((cfg1.win 2).blk t).view.read (Elt Ideal) (near (V c main_v2) (V c main_v1)) := by
  show (cfg1.win 2).cut (grid1.coords t) ((dat1 V c).after 2 t) = _
  rw [after1_2]
  unfold out1_2
  rw [View.canon_unit_zero hz2]
  simp only [View.ld_unit_zero (S := S4x4096) hz2, View.ld_unit_zero (S := S4x128) hz2]
  funext j
  obtain ⟨e0, e1, f0, f1, g0, g1⟩ := idx_facts t
  show k1_pay1 (iblk1 V c 0 t) (iblk1 V c 1 t) j = near (V c main_v2) (V c main_v1) (((cfg1.win 2).blk t).view.emb j)
  refine pay_eq_near _ _ _ _ j _ ?_ (fun y => ?_) ?_
  · show win1_2.index t (0 : Fin 2) * 4 + 1 * (j 0).val = (j 0).val; omega
  · show V c main_v2 (((cfg1.win 0).blk t).view.emb y) = V c main_v2 y
    congr 1
    funext a
    apply Fin.ext
    match a with
    | ⟨0, _⟩ => show win1_0.index t (0 : Fin 2) * 4 + 1 * (y 0).val = (y 0).val; omega
    | ⟨1, _⟩ => show win1_0.index t (1 : Fin 2) * 4096 + 1 * (y 1).val = (y 1).val; omega
  · show V c main_v1 (((cfg1.win 1).blk t).view.emb j) = V c main_v1 (((cfg1.win 2).blk t).view.emb j)
    rfl

/-- Target patch `j` is written back by the grid point of its tile, `j / 128`. -/
theorem cover (i : S4x4096.Idx) :
    ∃ t : Fin cfg1.N, (cfg1.win 2).flush t = true ∧ i ∈ ((cfg1.win 2).blk t).view.set := by
  have h0 : (i 0).val < 4 := (i 0).isLt
  have h1 : (i 1).val < 4096 := (i 1).isLt
  have hN : (i 1).val / 128 < cfg1.N := by rw [show cfg1.N = 32 from N_1]; omega
  refine ⟨⟨(i 1).val / 128, hN⟩, flush1_2 _, ?_⟩
  obtain ⟨-, -, -, -, g0, g1⟩ := idx_facts ⟨(i 1).val / 128, hN⟩
  replace g1 : win1_2.index ⟨(i 1).val / 128, hN⟩ (1 : Fin 2) = (i 1).val / 128 := g1
  show i ∈ ((View.whole main_v3).slice (win1_2.rect ⟨(i 1).val / 128, hN⟩)).set
  rw [View.set_slice_whole, Rect.mem_set_unit]
  intro a
  match a with
  | ⟨0, _⟩ => show win1_2.index ⟨(i 1).val / 128, hN⟩ (0 : Fin 2) * 4 ≤ (i 0).val ∧ (i 0).val < win1_2.index ⟨(i 1).val / 128, hN⟩ (0 : Fin 2) * 4 + 4; rw [g0]; omega
  | ⟨1, _⟩ => show win1_2.index ⟨(i 1).val / 128, hN⟩ (1 : Fin 2) * 128 ≤ (i 1).val ∧ (i 1).val < win1_2.index ⟨(i 1).val / 128, hN⟩ (1 : Fin 2) * 128 + 128; rw [g1]; omega

/-- After the launch the result holds the nearest-source distances of the two arrays of sums as the launch found them. -/
theorem final (c : Dev nD) : (dat1 V c).arrAt 2 cfg1.N = near (V c main_v2) (V c main_v1) :=
  (dat1 V c).arrAt_eq_of_cover 2 (near (V c main_v2) (V c main_v1)) (fun t _ => flushed_eq V c t) cover

end Cert.KernelIdeal.Near

end
-- ==== Proof.MinRel.lean ====
/-
  The third launch: for every source patch, the least relative distance to a target patch.

  One grid point per tile of 128 source patches; the target sums and the nearest-source distances are resident whole.
  At (n, q) of the tile the body stores the minimum over all 4096 target patches k of
  |sumI[n, q] - sumT[n, k]| / (near[n, k] + slack).  So after the launch the [4, 4096] result holds, at (n, i), the
  minimum over k of |sumI[n, i] - sumT[n, k]| / (near[n, k] + slack).
-/
import proofs.«107951_j36189394436760_1_alg».proof.Proof.Gen.KernelIdeal.Frame
import Idealize.ShloMosaic.Lib.Pipeline.Value
import Idealize.ShloMosaic.Lib.ValueIdx
import Idealize.ShloMosaic.PureOps.Ideal.Laws
import proofs.«107951_j36189394436760_1_alg».proof.Proof.LibPairwise
import proofs.«107951_j36189394436760_1_alg».proof.Proof.LibColumns
import proofs.«107951_j36189394436760_1_alg».proof.Proof.Order

noncomputable section

open Idealize.ShloMosaic Idealize.ShloMosaic.TcCoe Idealize.SL.Sem
open Idealize.ShloMosaic.Pipeline (Dat)

namespace Cert.KernelIdeal.MinRel

open Cert.KernelIdeal Cert.KernelIdeal.Gen Idealize.ShloMosaic.ValueIdx Idealize.ShloMosaic.Pairwise Cert.RelDist

variable (V : (c : Dev nD) → (b : Ref sig .tc) → Buf (Elt Ideal) ((c : Thread nD τ).loc b))

theorem hz2 : (![0, 0] : Fin 2 → Nat) = fun _ => 0 := funext fun a => by fin_cases a <;> rfl

/-- The image coordinate of an index of a [4, 4096] array, as a number below 4. -/
abbrev img (i : S4x4096.Idx) : Fin 4 := ⟨(i 0).val, (i 0).isLt⟩

/-- From the source sums `aI`, the target sums `aT` and the nearest-source distances `aD`: at (n, i) the least
    |aI[n, i] - aT[n, k]| / (aD[n, k] + slack) over k. -/
def minRelArr (aI aT aD : S4x4096.Idx → EReal) : S4x4096.Idx → EReal :=
  fun i => (Finset.univ : Finset (Fin 4096)).fold min ⊤
    (fun k => Ideal.div (dist (aI i) (aT (ix2 (img i) k))) (aD (ix2 (img i) k) + slack))

/-- The body's stored value at (n, q) of the tile. -/
theorem pay_apply (x0 : Vec Ideal S4x128 .f32) (x1 x2 : Vec Ideal S4x4096 .f32) (n : Fin 4) (q : Fin 128) :
    k2_pay1 x0 x1 x2 (ix2 n q)
      = (Finset.univ : Finset (Fin 4096)).fold min ⊤
          (fun k => Ideal.div (dist (x0 (ix2 n q)) (x1 (ix2 n k))) (x2 (ix2 n k) + slack)) := by
  unfold k2_pay1
  refine (multiReduction_minimumf_single _ _ reduces_S4x128x4096_S4x128 (.inl rfl) rfl (ix2 n q)).trans ?_
  have hacc : Ideal.ofBits .f32 (FKind.minimumf.neutral .f32 (.inl rfl)) = ⊤ := ofBits_pos_inf_f32
  rw [Ideal.ofBits_def, hacc]
  have key : ∀ k : Fin 4096, Ideal.div
      (dist (broadcastTo S4x128x4096 (shapeCast S4x128x1 (shapeCast S4x128 x0 shapeCasts_S4x128_S4x128) shapeCasts_S4x128_S4x128x1) broadcasts_S4x128x1_S4x128x4096 (reduces_S4x128x4096_S4x128.lift (ix2 n q) k))
        (broadcastTo S4x128x4096 (shapeCast S4x1x4096 (shapeCast S4x4096 x1 shapeCasts_S4x4096_S4x4096) shapeCasts_S4x4096_S4x1x4096) broadcasts_S4x1x4096_S4x128x4096 (reduces_S4x128x4096_S4x128.lift (ix2 n q) k)))
      (broadcastTo S4x128x4096 (addf (shapeCast S4x1x4096 (shapeCast S4x4096 x2 shapeCasts_S4x4096_S4x4096) shapeCasts_S4x4096_S4x1x4096) (broadcast S4x1x4096 (Scalar.ofBits .f32 0x3727C5AC#32)) : FVec Ideal S4x1x4096 .f32) broadcasts_S4x1x4096_S4x128x4096 (reduces_S4x128x4096_S4x128.lift (ix2 n q) k))
      = Ideal.div (dist (x0 (ix2 n q)) (x1 (ix2 n k))) (x2 (ix2 n k) + slack) := by
    intro k
    rw [lift_last _ n q k, shapeCast_self, shapeCast_self, shapeCast_self, broadcastCol_apply, broadcastRow_apply, broadcastRow_apply,
      castCol_apply, castRow_apply, addf_apply, castRow_apply]
    rfl
  exact congrArg (fun f => (Finset.univ : Finset (Fin 4096)).fold min ⊤ f) (funext key)

/-- The stored value against whole arrays: the tile entry `j` sits at array index `i`; the tile of source sums reads
    the array `aI` there; the two resident blocks are the arrays `aT` and `aD`. -/
theorem pay_eq_minRel (x0 : Vec Ideal S4x128 .f32) (x1 x2 : Vec Ideal S4x4096 .f32) (aI aT aD : S4x4096.Idx → EReal)
    (j : S4x128.Idx) (i : S4x4096.Idx) (hi0 : (i 0).val = (j 0).val)
    (h0 : x0 j = aI i) (h1 : ∀ y : S4x4096.Idx, x1 y = aT y) (h2 : ∀ y : S4x4096.Idx, x2 y = aD y) :
    k2_pay1 x0 x1 x2 j = minRelArr aI aT aD i := by
  obtain ⟨n, q, rfl⟩ : ∃ (n : Fin 4) (q : Fin 128), j = ix2 n q := ⟨j 0, j 1, eq_ix2 j⟩
  rw [pay_apply]
  unfold minRelArr
  refine congrArg (fun f => (Finset.univ : Finset (Fin 4096)).fold min ⊤ f) (funext fun k => ?_)
  have hn : img i = n := Fin.ext hi0
  rw [h0, h1, h2, hn]

theorem idx_facts : ∀ t : Fin cfg2.N,
    win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = t.val :=
  (by decide +kernel : ∀ t : Fin grid2.N, _)

theorem flushed_eq (c : Dev nD) (t : Fin cfg2.N) :
    (dat2 V c).flushed 3 t
      = ((cfg2.win 3).blk t).view.read (Elt Ideal) (minRelArr (V c main_v2) (V c main_v1) (V c main_v3)) := by
  show (cfg2.win 3).cut (grid2.coords t) ((dat2 V c).after 3 t) = _
  rw [after2_3]
  unfold out2_3
  rw [View.canon_unit_zero hz2]
  simp only [View.ld_unit_zero (S := S4x4096) hz2, View.ld_unit_zero (S := S4x128) hz2]
  funext j
  obtain ⟨e0, e1, f0, f1, g0, g1, k0, k1⟩ := idx_facts t
  show k2_pay1 (iblk2 V c 0 t) (iblk2 V c 1 t) (iblk2 V c 2 t) j
    = minRelArr (V c main_v2) (V c main_v1) (V c main_v3) (((cfg2.win 3).blk t).view.emb j)
  refine pay_eq_minRel _ _ _ _ _ _ j _ ?_ ?_ (fun y => ?_) (fun y => ?_)
  · show win2_3.index t (0 : Fin 2) * 4 + 1 * (j 0).val = (j 0).val; omega
  · show V c main_v2 (((cfg2.win 0).blk t).view.emb j) = V c main_v2 (((cfg2.win 3).blk t).view.emb j)
    rfl
  · show V c main_v1 (((cfg2.win 1).blk t).view.emb y) = V c main_v1 y
    congr 1
    funext a
    apply Fin.ext
    match a with
    | ⟨0, _⟩ => show win2_1.index t (0 : Fin 2) * 4 + 1 * (y 0).val = (y 0).val; omega
    | ⟨1, _⟩ => show win2_1.index t (1 : Fin 2) * 4096 + 1 * (y 1).val = (y 1).val; omega
  · show V c main_v3 (((cfg2.win 2).blk t).view.emb y) = V c main_v3 y
    congr 1
    funext a
    apply Fin.ext
    match a with
    | ⟨0, _⟩ => show win2_2.index t (0 : Fin 2) * 4 + 1 * (y 0).val = (y 0).val; omega
    | ⟨1, _⟩ => show win2_2.index t (1 : Fin 2) * 4096 + 1 * (y 1).val = (y 1).val; omega

/-- Source patch `i` is written back by the grid point of its tile, `i / 128`. -/
theorem cover (i : S4x4096.Idx) :
    ∃ t : Fin cfg2.N, (cfg2.win 3).flush t = true ∧ i ∈ ((cfg2.win 3).blk t).view.set := by
  have h0 : (i 0).val < 4 := (i 0).isLt
  have h1 : (i 1).val < 4096 := (i 1).isLt
  have hN : (i 1).val / 128 < cfg2.N := by rw [show cfg2.N = 32 from N_2]; omega
  refine ⟨⟨(i 1).val / 128, hN⟩, flush2_3 _, ?_⟩
  obtain ⟨-, -, -, -, -, -, g0, g1⟩ := idx_facts ⟨(i 1).val / 128, hN⟩
  replace g1 : win2_3.index ⟨(i 1).val / 128, hN⟩ (1 : Fin 2) = (i 1).val / 128 := g1
  show i ∈ ((View.whole main_v4).slice (win2_3.rect ⟨(i 1).val / 128, hN⟩)).set
  rw [View.set_slice_whole, Rect.mem_set_unit]
  intro a
  match a with
  | ⟨0, _⟩ => show win2_3.index ⟨(i 1).val / 128, hN⟩ (0 : Fin 2) * 4 ≤ (i 0).val ∧ (i 0).val < win2_3.index ⟨(i 1).val / 128, hN⟩ (0 : Fin 2) * 4 + 4; rw [g0]; omega
  | ⟨1, _⟩ => show win2_3.index ⟨(i 1).val / 128, hN⟩ (1 : Fin 2) * 128 ≤ (i 1).val ∧ (i 1).val < win2_3.index ⟨(i 1).val / 128, hN⟩ (1 : Fin 2) * 128 + 128; rw [g1]; omega

/-- After the launch the result holds the least relative distances of the three arrays as the launch found them. -/
theorem final (c : Dev nD) :
    (dat2 V c).arrAt 3 cfg2.N = minRelArr (V c main_v2) (V c main_v1) (V c main_v3) :=
  (dat2 V c).arrAt_eq_of_cover 3 (minRelArr (V c main_v2) (V c main_v1) (V c main_v3)) (fun t _ => flushed_eq V c t) cover

end Cert.KernelIdeal.MinRel

end
-- ==== Proof.Tail.lean ====
/-
  From the per-patch scores to the loss: the mean of the scores over the 4096 patches of an image, minus its logarithm,
  and the mean of that over the four images.  Both programs end with these same operations, so the loss is one
  function of the [4, 4096] array of scores.
-/
import Idealize.ShloMosaic.PureOps
import Idealize.ShloMosaic.PureOps.Ideal

noncomputable section

namespace Cert.RelDist

open Idealize.ShloMosaic

abbrev P_ : Shape := ⟨0, ![]⟩
abbrev P4 : Shape := ⟨1, ![4]⟩
abbrev P4x4096 : Shape := ⟨2, ![4, 4096]⟩

/-- The loss from the scores: `mean_n (-log (mean_i K[n, i]))`, spelt with the host operations both programs use. -/
def meanNegLog (h1 : P4x4096.ReducesTo [1] P4) (hu : 0 < P_.numel)
    (hb : P_.BroadcastsInDim P4 (![] : Fin 0 → Fin P4.rank)) (h0 : P4.ReducesTo [0] P_)
    (K : FVec Ideal P4x4096 .f32) : FVec Ideal P_ .f32 :=
  Host.divf
    (Host.reduceAdd
      (Host.negf (Host.log (Host.divf (Host.reduceAdd K (constant (F := Ideal) P_ .f32 0x00000000#32) h1 hu)
        (broadcastInDim P4 ![] hb (constant (F := Ideal) P_ .f32 0x45800000#32)))))
      (constant (F := Ideal) P_ .f32 0x00000000#32) h0 hu)
    (constant (F := Ideal) P_ .f32 0x40800000#32)

end Cert.RelDist

end
-- ==== Proof.Chain.lean ====
/-
  The three launches and the host operations between and after them, chained: what the result buffer holds at the end.

  The first launch leaves the channel sums of both arguments; the host flattens their pixels into patches; the second
  launch leaves the nearest-source distance of every target patch and the third the least relative distance of every
  source patch; the host applies the score to each and takes the mean, minus logarithm, mean.
-/
import proofs.«107951_j36189394436760_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Run
import proofs.«107951_j36189394436760_1_alg».proof.Proof.ChanSum
import proofs.«107951_j36189394436760_1_alg».proof.Proof.Near
import proofs.«107951_j36189394436760_1_alg».proof.Proof.MinRel
import proofs.«107951_j36189394436760_1_alg».proof.Proof.Tail

noncomputable section

open Idealize.ShloMosaic Idealize.ShloMosaic.TcCoe Idealize.SL.Sem
open Idealize.ShloMosaic.Pipeline (Dat)

namespace Cert.KernelIdeal.Chain

open Cert.KernelIdeal Cert.KernelIdeal.Gen Idealize.ShloMosaic.ValueIdx Cert.RelDist Idealize.ShloMosaic.StableHlo

variable (m : (ℓ : Loc nD τ sig) → Buf (Elt Ideal) ℓ) (ρ : Dev nD → PrngReg)

/-- The per-patch channel sums of a feature array: the [4, 64, 64] channel sums with the pixels flattened. -/
def patchSums (a : S4x256x64x64.Idx → EReal) : S4x4096.Idx → EReal :=
  shapeCast S4x4096 (ChanSum.chanSum a) shapeCasts_S4x64x64_S4x4096

/-- Patch `p` of image `n` is pixel (p / 64, p % 64): its sum runs over the channels of that pixel. -/
theorem patchSums_apply (a : S4x256x64x64.Idx → EReal) (n : Fin 4) (p : Fin 4096) :
    patchSums a (ix2 n p)
      = ∑ k : Fin 256, a (ix4 n k (⟨p.val / 64, by have := p.isLt; omega⟩ : Fin 64) (⟨p.val % 64, by omega⟩ : Fin 64)) := by
  have hp := p.isLt
  unfold patchSums
  rw [shapeCast_apply (ChanSum.chanSum a) shapeCasts_S4x64x64_S4x4096 (ix2 n p)
    (ix3 n (⟨p.val / 64, by omega⟩ : Fin 64) (⟨p.val % 64, by omega⟩ : Fin 64)) (by
      rw [Shape.rowMajor_val_three, Shape.rowMajor_val_two]
      show (n.val * 64 + p.val / 64) * 64 + p.val % 64 = n.val * 4096 + p.val
      omega)]
  unfold ChanSum.chanSum
  refine Finset.sum_congr rfl fun k _ => congrArg a ?_
  funext d
  apply Fin.ext
  match d with
  | ⟨0, _⟩ => rfl
  | ⟨1, _⟩ => rfl
  | ⟨2, _⟩ => rfl
  | ⟨3, _⟩ => rfl

/-- After the first launch the two result buffers hold the channel sums of the two arguments. -/
theorem W1_v0_0 (c : Dev nD) :
    W1 m ρ c (Proc.devRef .tc main_v0_0) = ChanSum.chanSum (m ((c : Thread nD τ).loc main_arg0)) :=
  (W1_arr m ρ c 2).trans (ChanSum.final2 (V0 m ρ) c)

theorem W1_v0_1 (c : Dev nD) :
    W1 m ρ c (Proc.devRef .tc main_v0_1) = ChanSum.chanSum (m ((c : Thread nD τ).loc main_arg1)) :=
  (W1_arr m ρ c 3).trans (ChanSum.final3 (V0 m ρ) c)

/-- The second launch is entered with the per-patch sums of the first argument (the target features) -/
theorem V2_v1 (c : Dev nD) : V2 m ρ c main_v1 = patchSums (m ((c : Thread nD τ).loc main_arg0)) := by
  show StableHlo.after hostOps1 (W1 m ρ c) (Proc.devRef .tc main_v1) = _
  after_results
  rw [W1_v0_0]
  rfl

/-- and of the second (the source features). -/
theorem V2_v2 (c : Dev nD) : V2 m ρ c main_v2 = patchSums (m ((c : Thread nD τ).loc main_arg1)) := by
  show StableHlo.after hostOps1 (W1 m ρ c) (Proc.devRef .tc main_v2) = _
  after_results
  rw [W1_v0_1]
  rfl

/-- The third launch is entered with the second launch's result and with the sums the second launch only read. -/
theorem V3_v3 (c : Dev nD) : V3 m ρ c main_v3 = Near.near (V2 m ρ c main_v2) (V2 m ρ c main_v1) :=
  (W3_arr m ρ c 2).trans (Near.final (V2 m ρ) c)

theorem V3_v2 (c : Dev nD) : V3 m ρ c main_v2 = V2 m ρ c main_v2 :=
  (W3_arr m ρ c 0).trans (((dat1 (V2 m ρ) c).arrAt_in 0 rfl _).trans (A_eq1 (V2 m ρ) c 0))

theorem V3_v1 (c : Dev nD) : V3 m ρ c main_v1 = V2 m ρ c main_v1 :=
  (W3_arr m ρ c 1).trans (((dat1 (V2 m ρ) c).arrAt_in 1 rfl _).trans (A_eq1 (V2 m ρ) c 1))

/-- After the third launch its result buffer holds the least relative distances. -/
theorem W4_v4 (c : Dev nD) :
    W4 m ρ c (Proc.devRef .tc main_v4)
      = MinRel.minRelArr (V3 m ρ c main_v2) (V3 m ρ c main_v1) (V3 m ρ c main_v3) :=
  (W4_arr m ρ c 3).trans (MinRel.final (V3 m ρ) c)

/-- The host's score stage: `exp ((1 - x) / 1)` entry by entry. -/
def scoresOf (X : FVec Ideal S4x4096 .f32) : FVec Ideal S4x4096 .f32 :=
  Host.exp (Host.divf (subf (broadcastInDim S4x4096 ![] bcast_S_S4x4096 (constant (F := Ideal) S_ .f32 0x3F800000#32)) X)
    (broadcastInDim S4x4096 ![] bcast_S_S4x4096 (constant (F := Ideal) S_ .f32 0x3F800000#32)))

theorem scoresOf_apply (X : FVec Ideal S4x4096 .f32) (i : S4x4096.Idx) : scoresOf X i = score (X i) := by
  unfold scoresOf score
  show Ideal.exp (Ideal.div (broadcastInDim S4x4096 ![] bcast_S_S4x4096 (constant (F := Ideal) S_ .f32 0x3F800000#32) i - X i)
    (broadcastInDim S4x4096 ![] bcast_S_S4x4096 (constant (F := Ideal) S_ .f32 0x3F800000#32) i)) = _
  rw [broadcastInDim_apply _ bcast_S_S4x4096 (constant (F := Ideal) S_ .f32 0x3F800000#32) i (fun a => a.elim0) (fun a => a.elim0)]
  rfl

/-- The result buffer at the end of the run: the loss of the scores of what the third launch left. -/
theorem W5_out (c : Dev nD) :
    W5 m ρ c (Proc.devRef .tc main_v16)
      = meanNegLog reducesTo_S4x4096_S4_d1 h_S_ bcast_S_S4 reducesTo_S4_S_d0 (scoresOf (W4 m ρ c (Proc.devRef .tc main_v4))) := by
  show StableHlo.after hostOps3 (W4 m ρ c) (Proc.devRef .tc main_v16) = _
  after_results
  rfl

/-- The kernel program's result as one function of the two argument arrays. -/
def result (aT aI : S4x256x64x64.Idx → EReal) : FVec Ideal S_ .f32 :=
  meanNegLog reducesTo_S4x4096_S4_d1 h_S_ bcast_S_S4 reducesTo_S4_S_d0
    (fun i => score (MinRel.minRelArr (patchSums aI) (patchSums aT) (Near.near (patchSums aI) (patchSums aT)) i))

theorem W5_result (c : Dev nD) :
    W5 m ρ c (Proc.devRef .tc main_v16)
      = result (m ((c : Thread nD τ).loc main_arg0)) (m ((c : Thread nD τ).loc main_arg1)) := by
  rw [W5_out, W4_v4, V3_v3, V3_v2, V3_v1, V2_v2, V2_v1]
  unfold result
  exact congrArg _ (funext fun i => scoresOf_apply _ i)

end Cert.KernelIdeal.Chain

end
-- ==== Proof.RefScore.lean ====
/-
  The reference, read: its per-patch scores are the greatest score of each source patch against a target patch.

  The reference forms every distance |sumI[n, i] - sumT[n, k]|, lays the target patch k out as a pixel (h, w) with
  k = 64 h + w, clamps at zero, takes for each target pixel the minimum over source patches, divides, applies the
  decreasing score to every entry and takes, for each source patch, the maximum over the target pixels.
-/
import proofs.«107951_j36189394436760_1_alg».proof.Proof.Gen.ReferenceIdeal.Read
import Idealize.ShloMosaic.PureOps.Reduce
import Idealize.ShloMosaic.Lib.ValueIdx
import proofs.«107951_j36189394436760_1_alg».proof.Proof.Order
import proofs.«107951_j36189394436760_1_alg».proof.Proof.Tail

noncomputable section

namespace Cert.ReferenceIdeal.RefValue

open Cert.ReferenceIdeal Cert.ReferenceIdeal.Gen Cert.ReferenceIdeal.Read Idealize.ShloMosaic Idealize.ShloMosaic.ValueIdx
open Cert.RelDist

variable (x0 x1 : (⟨S4x256x64x64, .f32⟩ : BufTy).Contents (Elt Ideal))

/-- The reference's per-patch channel sums of the source features (its second argument) -/
def sI (n : Fin 4) (p : Fin 4096) : EReal := val_main_v4 (F := Ideal) x1 (ix2 n p)
/-- and of the target features (its first argument). -/
def sT (n : Fin 4) (p : Fin 4096) : EReal := val_main_v5 (F := Ideal) x0 (ix2 n p)

/-- The patch number of pixel (h, w). -/
def patch (h w : Fin 64) : Fin 4096 := ⟨h.val * 64 + w.val, by have := h.isLt; have := w.isLt; omega⟩

/-- The clamped distance array at target pixel (h, w) and source patch i. -/
theorem raw_apply (n : Fin 4) (h w : Fin 64) (i : Fin 4096) :
    val_main_v15 (F := Ideal) x0 x1 (ix4 n h w i) = rawR (sT x0) (sI x1) n (patch h w) i := by
  have hn := n.isLt; have hh := h.isLt; have hw := w.isLt; have hi := i.isLt
  rw [val_main_v15_apply, val_main_v13_apply, val_main_v12_apply, val_main_v11_apply, val_main_v10_apply,
    val_main_v8_apply, val_main_v6_apply, val_main_v9_apply, val_main_v7_apply, val_main_v14_apply, val_main_cst_1_apply]
  have e1 : idx_main_v6 (idx_main_v8 (idx_main_v12 (idx_main_v13 (ix4 n h w i)))) = ix2 n i := by
    funext a; apply Fin.ext
    match a with
    | ⟨0, _⟩ => show (((n.val * 64 + h.val) * 64 + w.val) * 4096 + i.val) / 16777216 = n.val; omega
    | ⟨1, _⟩ => show (((n.val * 64 + h.val) * 64 + w.val) * 4096 + i.val) % 4096 = i.val; omega
  have e2 : idx_main_v7 (idx_main_v9 (idx_main_v12 (idx_main_v13 (ix4 n h w i)))) = ix2 n (patch h w) := by
    funext a; apply Fin.ext
    match a with
    | ⟨0, _⟩ => show (((n.val * 64 + h.val) * 64 + w.val) * 4096 + i.val) / 16777216 = n.val; omega
    | ⟨1, _⟩ => show (((n.val * 64 + h.val) * 64 + w.val) * 4096 + i.val) / 4096 % 4096 = h.val * 64 + w.val; omega
  rw [e1, e2]
  simp only [Ideal.ofBits_def, Ideal.hostAbsf_def, Ideal.absf_def, Ideal.subf_def, Ideal.maximumf_def, Ideal.ofBits_zero_f32]
  rfl

/-- The least clamped distance of target pixel (h, w). -/
theorem near_apply (n : Fin 4) (h w : Fin 64) :
    val_main_v16 (F := Ideal) x0 x1 (ix3 n h w) = nearR (sT x0) (sI x1) n (patch h w) := by
  unfold val_main_v16
  have hr : S4x64x64x4096.Reduces [3] S4x64x64 := by decide
  rw [Host.reduce_eq_fold_single FloatOps.minimumf _ _ reducesTo_S4x64x64x4096_S4x64x64_d3 hr h_S_ (ix3 n h w)]
  have key : ∀ i : Fin 4096, val_main_v15 (F := Ideal) x0 x1 (hr.lift (ix3 n h w) i) = rawR (sT x0) (sI x1) n (patch h w) i := by
    intro i
    have e : hr.lift (ix3 n h w) i = ix4 n h w i := by
      funext d; apply Fin.ext
      match d with
      | ⟨0, _⟩ => rfl
      | ⟨1, _⟩ => rfl
      | ⟨2, _⟩ => rfl
      | ⟨3, _⟩ => rfl
    rw [e, raw_apply]
  unfold nearR
  show (Finset.univ : Finset (Fin 4096)).fold min (Ideal.ofBits .f32 0x7F800000#32)
      (fun i => val_main_v15 (F := Ideal) x0 x1 (hr.lift (ix3 n h w) i)) = _
  rw [ofBits_pos_inf_f32]
  exact congrArg (fun f => (Finset.univ : Finset (Fin 4096)).fold min ⊤ f) (funext key)

/-- The score array at target pixel (h, w) and source patch i. -/
theorem score_apply (n : Fin 4) (h w : Fin 64) (i : Fin 4096) :
    val_main_v26 (F := Ideal) x0 x1 (ix4 n h w i)
      = score (Ideal.div (rawR (sT x0) (sI x1) n (patch h w) i) (nearR (sT x0) (sI x1) n (patch h w) + slack)) := by
  rw [val_main_v26_apply, val_main_v25_apply, val_main_v23_apply, val_main_v24_apply, val_main_cst_5_apply,
    val_main_v22_apply, val_main_cst_4_apply, val_main_v21_apply, val_main_v20_apply, val_main_v19_apply,
    val_main_v17_apply, val_main_v18_apply, val_main_cst_3_apply, raw_apply]
  have e : idx_main_v17 (idx_main_v20 (ix4 n h w i)) = ix3 n h w := by
    funext a; apply Fin.ext
    match a with
    | ⟨0, _⟩ => rfl
    | ⟨1, _⟩ => rfl
    | ⟨2, _⟩ => rfl
  rw [e, near_apply]
  simp only [Ideal.hostUnary_exp_def, Ideal.hostDivf_def, Ideal.subf_def, Ideal.addf_def, Ideal.ofBits_def]
  rfl

/-- The reference's scores: for each source patch the greatest score against a target pixel. -/
theorem scores_apply (n : Fin 4) (i : Fin 4096) :
    val_main_v27 (F := Ideal) x0 x1 (ix2 n i) = scoreR (sT x0) (sI x1) n i := by
  unfold val_main_v27
  rw [Host.reduce_eq_fold]
  show (Finset.univ.filter fun idx => reducesTo_S4x64x64x4096_S4x4096_d1_2.drop idx = ix2 n i).fold max
      (Ideal.ofBits .f32 0xFF800000#32) (val_main_v26 (F := Ideal) x0 x1) = _
  unfold scoreR
  rw [ofBits_neg_inf_f32, fold_max_bot, fold_max_bot]
  have hdrop : ∀ (a : Fin 4) (b c : Fin 64) (d : Fin 4096),
      reducesTo_S4x64x64x4096_S4x4096_d1_2.drop (ix4 a b c d) = ix2 a d := by
    intro a b c d
    funext e; apply Fin.ext
    match e with
    | ⟨0, _⟩ => exact reducesTo_S4x64x64x4096_S4x4096_d1_2.drop_apply_val_of_eq (ix4 a b c d) 0 0
    | ⟨1, _⟩ => exact reducesTo_S4x64x64x4096_S4x4096_d1_2.drop_apply_val_of_eq (ix4 a b c d) 1 3
  apply le_antisymm
  · apply Finset.sup_le
    intro idx hidx
    obtain ⟨a, b, c, d, rfl⟩ : ∃ (a : Fin 4) (b c : Fin 64) (d : Fin 4096), idx = ix4 a b c d :=
      ⟨idx 0, idx 1, idx 2, idx 3, eq_ix4 idx⟩
    have hd := (Finset.mem_filter.mp hidx).2
    rw [hdrop] at hd
    have ha : a = n := by have := congrFun hd 0; exact this
    have hdi : d = i := by have := congrFun hd 1; exact this
    subst ha hdi
    rw [score_apply]
    exact Finset.le_sup (f := fun k => score (Ideal.div (rawR (sT x0) (sI x1) a k d) (nearR (sT x0) (sI x1) a k + slack)))
      (Finset.mem_univ (patch b c))
  · apply Finset.sup_le
    intro k _
    have hk := k.isLt
    have ek : k = patch ⟨k.val / 64, by omega⟩ ⟨k.val % 64, by omega⟩ := Fin.ext (by show k.val = k.val / 64 * 64 + k.val % 64; omega)
    rw [ek, ← score_apply]
    exact Finset.le_sup (f := val_main_v26 (F := Ideal) x0 x1) (Finset.mem_filter.mpr ⟨Finset.mem_univ _, hdrop _ _ _ _⟩)

/-! ## The reference's per-patch sums, and its result as the loss of its scores -/

/-- Patch `p` of image `n` is pixel (p / 64, p % 64): the reference's sums run over the channels of that pixel. -/
theorem sT_eq (n : Fin 4) (p : Fin 4096) :
    sT x0 n p
      = ∑ k : Fin 256, x0 (ix4 n k (⟨p.val / 64, by have := p.isLt; omega⟩ : Fin 64) (⟨p.val % 64, by omega⟩ : Fin 64)) := by
  have hn := n.isLt; have hp := p.isLt
  unfold sT
  rw [val_main_v5_apply, val_main_cst_0_apply, Ideal.ofBits_def, Ideal.ofBits_zero_f32, zero_add]
  refine Finset.sum_congr rfl fun k _ => ?_
  have hk := k.isLt
  rw [val_main_v3_apply, val_main_v0_apply]
  refine congrArg x0 ?_
  funext a; apply Fin.ext
  match a with
  | ⟨0, _⟩ => show ((n.val * 4096 + p.val) * 256 + k.val) / 1048576 = n.val; omega
  | ⟨1, _⟩ => show ((n.val * 4096 + p.val) * 256 + k.val) % 256 = k.val; omega
  | ⟨2, _⟩ => show ((n.val * 4096 + p.val) * 256 + k.val) / 16384 % 64 = p.val / 64; omega
  | ⟨3, _⟩ => show ((n.val * 4096 + p.val) * 256 + k.val) / 256 % 64 = p.val % 64; omega

theorem sI_eq (n : Fin 4) (p : Fin 4096) :
    sI x1 n p
      = ∑ k : Fin 256, x1 (ix4 n k (⟨p.val / 64, by have := p.isLt; omega⟩ : Fin 64) (⟨p.val % 64, by omega⟩ : Fin 64)) := by
  have hn := n.isLt; have hp := p.isLt
  unfold sI
  rw [val_main_v4_apply, val_main_cst_apply, Ideal.ofBits_def, Ideal.ofBits_zero_f32, zero_add]
  refine Finset.sum_congr rfl fun k _ => ?_
  have hk := k.isLt
  rw [val_main_v2_apply, val_main_v1_apply]
  refine congrArg x1 ?_
  funext a; apply Fin.ext
  match a with
  | ⟨0, _⟩ => show ((n.val * 4096 + p.val) * 256 + k.val) / 1048576 = n.val; omega
  | ⟨1, _⟩ => show ((n.val * 4096 + p.val) * 256 + k.val) % 256 = k.val; omega
  | ⟨2, _⟩ => show ((n.val * 4096 + p.val) * 256 + k.val) / 16384 % 64 = p.val / 64; omega
  | ⟨3, _⟩ => show ((n.val * 4096 + p.val) * 256 + k.val) / 256 % 64 = p.val % 64; omega

/-- The reference's result is the loss of its scores. -/
theorem result_eq : val_main_v34 (F := Ideal) x0 x1
    = meanNegLog reducesTo_S4x4096_S4_d1 h_S_ bcast_S_S4 reducesTo_S4_S_d0 (val_main_v27 (F := Ideal) x0 x1) := rfl

end Cert.ReferenceIdeal.RefValue

end
-- ==== Proof.Bridge.lean ====
/-
  The two programs compute one loss.

  Both read the same per-patch channel sums of the two arguments.  Over those sums the kernel program's score of a
  source patch is the score of its least relative distance, the reference's is its greatest score against a target
  patch; the score decreases with the distance, so the two are equal, and both programs take the same mean, minus
  logarithm, mean of the scores.
-/
import proofs.«107951_j36189394436760_1_alg».proof.Proof.Chain
import proofs.«107951_j36189394436760_1_alg».proof.Proof.RefScore

noncomputable section

namespace Cert.Bridge

open Idealize.ShloMosaic Idealize.ShloMosaic.ValueIdx Cert.RelDist
open Cert.KernelIdeal.Chain (patchSums patchSums_apply)

variable (x0 x1 : (⟨Cert.ReferenceIdeal.S4x256x64x64, .f32⟩ : BufTy).Contents (Elt Ideal))

/-- The kernel program's per-patch sums of the target features are the reference's, -/
theorem sumsT (n : Fin 4) (p : Fin 4096) : patchSums x0 (ix2 n p) = Cert.ReferenceIdeal.RefValue.sT x0 n p := by
  rw [patchSums_apply, Cert.ReferenceIdeal.RefValue.sT_eq]

/-- and so are those of the source features. -/
theorem sumsI (n : Fin 4) (p : Fin 4096) : patchSums x1 (ix2 n p) = Cert.ReferenceIdeal.RefValue.sI x1 n p := by
  rw [patchSums_apply, Cert.ReferenceIdeal.RefValue.sI_eq]

/-- The kernel program's scores are the reference's. -/
theorem scores_eq :
    (fun i => score (Cert.KernelIdeal.MinRel.minRelArr (patchSums x1) (patchSums x0)
        (Cert.KernelIdeal.Near.near (patchSums x1) (patchSums x0)) i))
      = Cert.ReferenceIdeal.Read.val_main_v27 (F := Ideal) x0 x1 := by
  funext i
  obtain ⟨n, p, rfl⟩ : ∃ (n : Fin 4) (p : Fin 4096), i = ix2 n p := ⟨i 0, i 1, eq_ix2 i⟩
  rw [Cert.ReferenceIdeal.RefValue.scores_apply, ← scoreK_eq_scoreR]
  unfold scoreK minRel
  refine congrArg score ?_
  show (Finset.univ : Finset (Fin 4096)).fold min ⊤
      (fun k => Ideal.div (dist (patchSums x1 (ix2 n p)) (patchSums x0 (ix2 n k)))
        (Cert.KernelIdeal.Near.near (patchSums x1) (patchSums x0) (ix2 n k) + slack)) = _
  refine congrArg (fun f => (Finset.univ : Finset (Fin 4096)).fold min ⊤ f) (funext fun k => ?_)
  have hnear : Cert.KernelIdeal.Near.near (patchSums x1) (patchSums x0) (ix2 n k)
      = nearK (Cert.ReferenceIdeal.RefValue.sT x0) (Cert.ReferenceIdeal.RefValue.sI x1) n k := by
    unfold nearK
    show (Finset.univ : Finset (Fin 4096)).fold min ⊤ (fun k' => dist (patchSums x0 (ix2 n k)) (patchSums x1 (ix2 n k'))) = _
    refine congrArg (fun f => (Finset.univ : Finset (Fin 4096)).fold min ⊤ f) (funext fun k' => ?_)
    rw [sumsT x0, sumsI x1]
  rw [hnear, sumsT x0, sumsI x1]

/-- The kernel program's result, as a function of the two arguments, is the reference's. -/
theorem result_eq :
    Cert.KernelIdeal.Chain.result x0 x1 = Cert.ReferenceIdeal.Read.val_main_v34 (F := Ideal) x0 x1 := by
  rw [Cert.ReferenceIdeal.RefValue.result_eq, ← scores_eq]
  rfl

end Cert.Bridge

end
-- ==== Proof.lean ====
/-
  The certificate of the relative-distance loss: a Pallas program of three launches against its jnp reference.

  Both programs sum the 256 channels of every pixel of two [4, 256, 64, 64] feature arrays, giving per-patch sums
  sumT and sumI over 4096 patches per image.  With dist(i, k) = |sumI[n, i] - sumT[n, k]| and
  near(k) = min_i dist(i, k), the reference forms every score exp ((1 - dist(i, k) / (near(k) + guard)) / 1) and takes,
  per source patch i, the maximum over k; the kernel program takes the minimum over k of dist(i, k) / (near(k) + guard)
  first and applies the score once.  The score decreases in its argument, so the maximum of the scores is the score of
  the minimum (Proof/Order.lean).  Both then take the mean over patches, minus logarithm, and mean over images.
  No finiteness of the inputs is used: sums, differences and absolute values read the same on both sides.

  The frames of the two kernel programs are the generated ones; the reference's frame is its generated run.  The
  kernel program's value is read off its run over the three launches (Proof/Run.lean, Proof/Chain.lean), the reference's
  off its generated run, one operation at a time (Proof/RefScore.lean); Proof/Bridge.lean joins them.
-/
import proofs.«107951_j36189394436760_1_alg».proof.Defs
import proofs.«107951_j36189394436760_1_alg».proof.Proof.Gen.Kernel
import proofs.«107951_j36189394436760_1_alg».proof.Proof.Gen.Kernel.Skeleton
import proofs.«107951_j36189394436760_1_alg».proof.Proof.Gen.Kernel.Launch
import proofs.«107951_j36189394436760_1_alg».proof.Proof.Gen.Kernel.Points
import proofs.«107951_j36189394436760_1_alg».proof.Proof.Gen.Kernel.Frame
import proofs.«107951_j36189394436760_1_alg».proof.Proof.Gen.KernelIdeal
import proofs.«107951_j36189394436760_1_alg».proof.Proof.Gen.KernelIdeal.Skeleton
import proofs.«107951_j36189394436760_1_alg».proof.Proof.Gen.KernelIdeal.Launch
import proofs.«107951_j36189394436760_1_alg».proof.Proof.Gen.KernelIdeal.Points
import proofs.«107951_j36189394436760_1_alg».proof.Proof.Gen.KernelIdeal.Frame
import proofs.«107951_j36189394436760_1_alg».proof.Proof.Gen.ReferenceIdeal
import proofs.«107951_j36189394436760_1_alg».proof.Proof.Gen.Pre_finite_inputs
import proofs.«107951_j36189394436760_1_alg».proof.Proof.Gen.ReferenceIdeal.Run
import proofs.«107951_j36189394436760_1_alg».proof.Proof.Gen.ReferenceIdeal.Read
import proofs.«107951_j36189394436760_1_alg».proof.Proof.Run
import proofs.«107951_j36189394436760_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing, so there is nothing to preserve. -/
theorem preserves : Cert.preserves_Kernel_KernelIdeal := trivial

/-- From memories agreeing on the two arguments both programs end with the same loss: the kernel program's run ends
    with its result at `Chain.result` of the arguments, the reference's at its composed term, and the two are one
    function of the arguments (`Bridge.result_eq`). -/
theorem algebraic : Cert.algebraic_KernelIdeal_ReferenceIdeal := by
  intro m ρ m' ρ' _ hagree
  refine ⟨fun c => Cert.KernelIdeal.Chain.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Chain.W5_result m ρ c), (h c).2⟩)
      (Cert.KernelIdeal.Hand.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v34_eq, (hagree c).1, (hagree c).2]
    exact (Cert.Bridge.result_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
